-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 83
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S1x40, .f32⟩
  | .hbm, ⟨82, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S10000x128, .f32⟩
  | .local _ .vmem, ⟨29, _⟩ => ⟨S10000x128, .f32⟩
  | .local _ .vmem, ⟨30, _⟩ => ⟨S128x40, .f32⟩
  | .local _ .vmem, ⟨31, _⟩ => ⟨S1x40, .f32⟩
  | .local _ .vmem, ⟨32, _⟩ => ⟨S10000x40, .f32⟩
  | .local _ .vmem, ⟨33, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10000x128_S10000x128 : S10000x128.ShapeCasts S10000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x40.size a ≤ S100000x40.size a
  hwx4_3 : ∀ i : grid4.Coords, EltTy.bits .f32 = 32 ∨ (Rect.block (s := S100000x40) S10000x40.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S10000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x40, .f32⟩
  | 127 => ⟨S1x40, .f32⟩
  | _ => ⟨S100000x128, .f32⟩

abbrev hbmTy0_1 (i : Nat) : BufTy := match i % 128 with
  | 0 => ⟨S100000x40, .f32⟩
  | 1 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The kernel program's run, read at every buffer that outlives the kernels.

  The program is five grid kernels among four stretches of host operations: nine segments. Between two segments each
  core holds every unscoped buffer whole, at contents given by a fold through the segments from the launch memory: a
  host stretch applies its operations' functions, a kernel replaces its windows' arrays by what its write-backs leave.
  `run_reads`: every weakly fair execution terminates, nothing faulting, in a state whose unscoped buffers hold the
  last boundary of that fold, so any property of states that follows from those readings holds of the final state.
  `run_out` is the instance that keeps the result array beside the eight arguments.
-/
import proofs.«121958_j55293408969104_1_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, and its final state satisfies any
    `Q` that holds of every memory whose unscoped buffers are the fold's last boundary. -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The result array ends at the fold's last boundary read at its reference, and the eight arguments end as launched. -/
theorem run_out : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reads m ρ fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩

end Cert.KernelIdeal.Out

end
-- ==== Proof.Spec.lean ====
/-
  The three dense steps of the network as functions of whole arrays, entry by entry, on the extended reals.

  With N = 100000 nodes, 128 features and 40 outputs:
    * `mm X W`      — the product of the node features with a square weight matrix: entry (n, q) is the sum over k of
                       X(n, k) · W(k, q);
    * `comb A H D B` — one layer's closing step: max((A + H · D) + B, 0) entry by entry, where A is the aggregated
                       neighbours' features, H the node's own transformed features, D the column of self-loop weights
                       (one per node) and B the bias row (one per feature);
    * `head X W B`  — the classifier: the product with the [128, 40] weights plus the bias row.
  Both programs compute these three functions: the kernel program block of rows by block of rows, the reference on
  whole arrays. Everything else either program does (degrees, normalisers, gathers and scatter-adds along the edges)
  is the same text in both and is never opened.
-/
import Idealize.ShloMosaic.Lib.ValueIdx
import Idealize.ShloMosaic.PureOps.Ideal

noncomputable section

namespace Cert.Gcn

open Idealize.ShloMosaic Idealize.ShloMosaic.ValueIdx

/-- Node features: [100000, 128]. -/
abbrev SNH : Shape := ⟨2, ![100000, 128]⟩
/-- A square weight matrix: [128, 128]. -/
abbrev SHH : Shape := ⟨2, ![128, 128]⟩
/-- One number per node, as a column: [100000, 1]. -/
abbrev SN1 : Shape := ⟨2, ![100000, 1]⟩
/-- One number per feature, as a row: [1, 128]. -/
abbrev S1H : Shape := ⟨2, ![1, 128]⟩
/-- The classifier's weights: [128, 40]. -/
abbrev SHO : Shape := ⟨2, ![128, 40]⟩
/-- One number per output, as a row: [1, 40]. -/
abbrev S1O : Shape := ⟨2, ![1, 40]⟩
/-- The result: [100000, 40]. -/
abbrev SNO : Shape := ⟨2, ![100000, 40]⟩

/-- The features times a square weight matrix. -/
def mm (X : SNH.Idx → EReal) (W : SHH.Idx → EReal) : SNH.Idx → EReal :=
  fun i => ∑ k : Fin 128, X (ix2 (i 0) k) * W (ix2 k (i 1))

/-- A layer's closing step: aggregate plus self-loop term plus bias, cut off below at zero. -/
def comb (A H : SNH.Idx → EReal) (D : SN1.Idx → EReal) (B : S1H.Idx → EReal) : SNH.Idx → EReal :=
  fun i => max ((A i + H i * D (ix2 (i 0) (0 : Fin 1))) + B (ix2 (0 : Fin 1) (i 1))) (Ideal.ofBits .f32 0x00000000#32)

/-- The classifier: features times the [128, 40] weights, plus the bias row. -/
def head (X : SNH.Idx → EReal) (W : SHO.Idx → EReal) (B : S1O.Idx → EReal) : SNO.Idx → EReal :=
  fun i => (∑ k : Fin 128, X (ix2 (i 0) k) * W (ix2 k (i 1))) + B (ix2 (0 : Fin 1) (i 1))

end Cert.Gcn

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.RefStages.lean ====
/-
  The reference's dense stages are the three functions of Spec.lean.

  The reference is one line of host operations. Its two square products are `mm` of their operands, each of its two
  closing steps add(add(agg, h · bcast(d)), bcast(b)) followed by the maximum with a broadcast zero is `comb` of
  the four arrays, and its last product plus the broadcast bias row is `head`. Read entry by entry: a host product
  is the sum over the contracted axis, a column broadcast along the features reads the row's entry, a row broadcast
  down the nodes reads the column's entry.
-/
import proofs.«121958_j55293408969104_1_alg».proof.Proof.Gen.ReferenceIdeal.Read
import proofs.«121958_j55293408969104_1_alg».proof.Proof.Spec
import proofs.«121958_j55293408969104_1_alg».proof.Proof.LibColRow

noncomputable section

namespace Cert.ReferenceIdeal.Stages

open Idealize.ShloMosaic Idealize.ShloMosaic.ValueIdx Idealize.ShloMosaic.StableHlo
open Cert.ReferenceIdeal Cert.ReferenceIdeal.Gen Cert.ReferenceIdeal.Read Cert.Gcn

/-- A square product of the reference is `mm` of its operands. -/
theorem mm_ref (X : FVec Ideal S100000x128 .f32) (W : FVec Ideal S128x128 .f32) :
    val_main_v4 (F := Ideal) X W = mm X W := by
  funext i
  rw [val_main_v4_apply]
  unfold mm
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

/-- The reference's closing step of a layer, over any four arrays, is `comb` of them. -/
theorem comb_ref (A H : FVec Ideal S100000x128 .f32) (D : FVec Ideal S100000x1 .f32) (B : FVec Ideal S1x128 .f32) :
    maximumf (addf (addf A (mulf H (broadcastInDim S100000x128 ![0, 1] bcast_S100000x1_S100000x128_0_1 D)))
        (broadcastInDim S100000x128 ![0, 1] bcast_S1x128_S100000x128_0_1 B))
      (broadcastInDim S100000x128 ![] bcast_S_S100000x128 (constant (F := Ideal) S_ .f32 0x00000000#32))
    = comb A H D B := by
  funext i
  obtain ⟨n, q, rfl⟩ : ∃ (n : Fin 100000) (q : Fin 128), i = ix2 n q := ⟨i 0, i 1, eq_ix2 i⟩
  show max ((A (ix2 n q) + H (ix2 n q) * broadcastInDim S100000x128 ![0, 1] bcast_S100000x1_S100000x128_0_1 D (ix2 n q))
        + broadcastInDim S100000x128 ![0, 1] bcast_S1x128_S100000x128_0_1 B (ix2 n q))
      (broadcastInDim S100000x128 ![] bcast_S_S100000x128 (constant (F := Ideal) S_ .f32 0x00000000#32) (ix2 n q)) = _
  rw [broadcastInDim_a1_ab_apply, broadcastInDim_1b_ab_apply]
  rfl

/-- The reference's classifier, over any three arrays, is `head` of them. -/
theorem head_ref (X : FVec Ideal S100000x128 .f32) (W : FVec Ideal S128x40 .f32) (B : FVec Ideal S1x40 .f32) :
    addf (Host.dotGeneral (F := Ideal) dot_S100000x128_S128x40_S100000x40_1_0_0_1_n_n none X W)
      (broadcastInDim S100000x40 ![0, 1] bcast_S1x40_S100000x40_0_1 B) = head X W B := by
  funext i
  obtain ⟨n, q, rfl⟩ : ∃ (n : Fin 100000) (q : Fin 40), i = ix2 n q := ⟨i 0, i 1, eq_ix2 i⟩
  show Host.dotGeneral (F := Ideal) dot_S100000x128_S128x40_S100000x40_1_0_0_1_n_n none X W (ix2 n q)
      + broadcastInDim S100000x40 ![0, 1] bcast_S1x40_S100000x40_0_1 B (ix2 n q) = _
  rw [broadcastInDim_1b_ab_apply]
  unfold head
  refine congrArg (· + B (ix2 (0 : Fin 1) q)) ?_
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 n q) ((ValueIdx.contrEquiv1 dot_S100000x128_S128x40_S100000x40_1_0_0_1_n_n 128 rfl rfl).symm k) = ix2 n k := funext fun a => Fin.ext (by
    match a with
    | ⟨0, _⟩ => exact lhs_main_v94_0 _ _
    | ⟨1, _⟩ => exact (lhs_main_v94_1 _ _).trans hk)
  have er : dot_S100000x128_S128x40_S100000x40_1_0_0_1_n_n.rhsIdx (ix2 n q) ((ValueIdx.contrEquiv1 dot_S100000x128_S128x40_S100000x40_1_0_0_1_n_n 128 rfl rfl).symm k) = ix2 k q := funext fun a => Fin.ext (by
    match a with
    | ⟨0, _⟩ => exact (rhs_main_v94_0 _ _).trans hk
    | ⟨1, _⟩ => exact rhs_main_v94_1 _ _)
  rw [el, er]

end Cert.ReferenceIdeal.Stages

end
-- ==== Proof.FoldArgs.lean ====
/-
  The argument arrays through the program: no host operation writes an argument and no kernel has one as an output,
  so at every boundary between two segments an argument's buffer holds its launch contents. Stated up to the boundary
  where each argument is last read: the features and the first weights before the first kernel, the first bias before
  the first combining kernel, and so on to the classifier's weights and bias before the last kernel.
-/
import proofs.«121958_j55293408969104_1_alg».proof.Proof.Gen.KernelIdeal.Frame
import proofs.«121958_j55293408969104_1_alg».proof.Proof.Gen.ReferenceIdeal.Read
import proofs.«121958_j55293408969104_1_alg».proof.Proof.Spec
import proofs.«121958_j55293408969104_1_alg».proof.Proof.RefStages

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Gcn
open Cert.ReferenceIdeal.Read Cert.ReferenceIdeal.Stages

variable (m : (ℓ : Loc nD τ sig) → Buf (Elt Ideal) ℓ) (ρ : Dev nD → PrngReg) (c : Dev nD)

/-- A buffer that no operation of a host stretch writes holds after the stretch what it held before. -/
local macro "keep_host" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem w0_arg0 : W0 m ρ c (Proc.devRef .tc main_arg0) = m ((c : Thread nD τ).loc main_arg0) := rfl
theorem w1_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by keep_host).trans (w0_arg0 m ρ c)

theorem w0_arg2 : W0 m ρ c (Proc.devRef .tc main_arg2) = m ((c : Thread nD τ).loc main_arg2) := rfl
theorem w1_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) by keep_host).trans (w0_arg2 m ρ c)

theorem w0_arg3 : W0 m ρ c (Proc.devRef .tc main_arg3) = m ((c : Thread nD τ).loc main_arg3) := rfl
theorem w1_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) by keep_host).trans (w0_arg3 m ρ c)
theorem w2_arg3 : W2 m ρ c (Proc.devRef .tc main_arg3) = m ((c : Thread nD τ).loc main_arg3) :=
  (W2_of_ne m ρ c main_arg3 (by decide)).trans (w1_arg3 m ρ c)

theorem w0_arg4 : W0 m ρ c (Proc.devRef .tc main_arg4) = m ((c : Thread nD τ).loc main_arg4) := rfl
theorem w1_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) by keep_host).trans (w0_arg4 m ρ c)
theorem w2_arg4 : W2 m ρ c (Proc.devRef .tc main_arg4) = m ((c : Thread nD τ).loc main_arg4) :=
  (W2_of_ne m ρ c main_arg4 (by decide)).trans (w1_arg4 m ρ c)
theorem w3_arg4 : W3 m ρ c (Proc.devRef .tc main_arg4) = m ((c : Thread nD τ).loc main_arg4) :=
  (show StableHlo.after hostOps1 (W2 m ρ c) (Proc.devRef .tc main_arg4) = W2 m ρ c (Proc.devRef .tc main_arg4) by keep_host).trans (w2_arg4 m ρ c)
theorem w4_arg4 : W4 m ρ c (Proc.devRef .tc main_arg4) = m ((c : Thread nD τ).loc main_arg4) :=
  (W4_of_ne m ρ c main_arg4 (by decide)).trans (w3_arg4 m ρ c)

theorem w0_arg5 : W0 m ρ c (Proc.devRef .tc main_arg5) = m ((c : Thread nD τ).loc main_arg5) := rfl
theorem w1_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by keep_host).trans (w0_arg5 m ρ c)
theorem w2_arg5 : W2 m ρ c (Proc.devRef .tc main_arg5) = m ((c : Thread nD τ).loc main_arg5) :=
  (W2_of_ne m ρ c main_arg5 (by decide)).trans (w1_arg5 m ρ c)
theorem w3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by keep_host).trans (w2_arg5 m ρ c)
theorem w4_arg5 : W4 m ρ c (Proc.devRef .tc main_arg5) = m ((c : Thread nD τ).loc main_arg5) :=
  (W4_of_ne m ρ c main_arg5 (by decide)).trans (w3_arg5 m ρ c)
theorem w5_arg5 : W5 m ρ c (Proc.devRef .tc main_arg5) = m ((c : Thread nD τ).loc main_arg5) :=
  (W5_of_ne m ρ c main_arg5 (by decide)).trans (w4_arg5 m ρ c)

theorem w0_arg7 : W0 m ρ c (Proc.devRef .tc main_arg7) = m ((c : Thread nD τ).loc main_arg7) := rfl
theorem w1_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) by keep_host).trans (w0_arg7 m ρ c)
theorem w2_arg7 : W2 m ρ c (Proc.devRef .tc main_arg7) = m ((c : Thread nD τ).loc main_arg7) :=
  (W2_of_ne m ρ c main_arg7 (by decide)).trans (w1_arg7 m ρ c)
theorem w3_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by keep_host).trans (w2_arg7 m ρ c)
theorem w4_arg7 : W4 m ρ c (Proc.devRef .tc main_arg7) = m ((c : Thread nD τ).loc main_arg7) :=
  (W4_of_ne m ρ c main_arg7 (by decide)).trans (w3_arg7 m ρ c)
theorem w5_arg7 : W5 m ρ c (Proc.devRef .tc main_arg7) = m ((c : Thread nD τ).loc main_arg7) :=
  (W5_of_ne m ρ c main_arg7 (by decide)).trans (w4_arg7 m ρ c)
theorem w6_arg7 : W6 m ρ c (Proc.devRef .tc main_arg7) = m ((c : Thread nD τ).loc main_arg7) :=
  (show StableHlo.after hostOps3 (W5 m ρ c) (Proc.devRef .tc main_arg7) = W5 m ρ c (Proc.devRef .tc main_arg7) by keep_host).trans (w5_arg7 m ρ c)
theorem w7_arg7 : W7 m ρ c (Proc.devRef .tc main_arg7) = m ((c : Thread nD τ).loc main_arg7) :=
  (W7_of_ne m ρ c main_arg7 (by decide)).trans (w6_arg7 m ρ c)

theorem w0_arg6 : W0 m ρ c (Proc.devRef .tc main_arg6) = m ((c : Thread nD τ).loc main_arg6) := rfl
theorem w1_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by keep_host).trans (w0_arg6 m ρ c)
theorem w2_arg6 : W2 m ρ c (Proc.devRef .tc main_arg6) = m ((c : Thread nD τ).loc main_arg6) :=
  (W2_of_ne m ρ c main_arg6 (by decide)).trans (w1_arg6 m ρ c)
theorem w3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by keep_host).trans (w2_arg6 m ρ c)
theorem w4_arg6 : W4 m ρ c (Proc.devRef .tc main_arg6) = m ((c : Thread nD τ).loc main_arg6) :=
  (W4_of_ne m ρ c main_arg6 (by decide)).trans (w3_arg6 m ρ c)
theorem w5_arg6 : W5 m ρ c (Proc.devRef .tc main_arg6) = m ((c : Thread nD τ).loc main_arg6) :=
  (W5_of_ne m ρ c main_arg6 (by decide)).trans (w4_arg6 m ρ c)
theorem w6_arg6 : W6 m ρ c (Proc.devRef .tc main_arg6) = m ((c : Thread nD τ).loc main_arg6) :=
  (show StableHlo.after hostOps3 (W5 m ρ c) (Proc.devRef .tc main_arg6) = W5 m ρ c (Proc.devRef .tc main_arg6) by keep_host).trans (w5_arg6 m ρ c)
theorem w7_arg6 : W7 m ρ c (Proc.devRef .tc main_arg6) = m ((c : Thread nD τ).loc main_arg6) :=
  (W7_of_ne m ρ c main_arg6 (by decide)).trans (w6_arg6 m ρ c)
theorem w8_arg6 : W8 m ρ c (Proc.devRef .tc main_arg6) = m ((c : Thread nD τ).loc main_arg6) :=
  (show StableHlo.after hostOps4 (W7 m ρ c) (Proc.devRef .tc main_arg6) = W7 m ρ c (Proc.devRef .tc main_arg6) by keep_host).trans (w7_arg6 m ρ c)

end Cert.KernelIdeal.Fold

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Bodies.lean ====
/-
  What each kernel body stores, entry by entry, on the extended reals.

  Three bodies occur (two of them twice). The dense bodies store the product of the block of rows with the whole weight
  matrix: entry (p, q) is the sum over k of x(p, k) · w(k, q) — the roundings to bf16 on the way into the product are
  the identity on extended reals, and the zero accumulator adds nothing. The last dense body then adds the bias row.
  The combining body stores max((a + h · d) + b, 0) entry by entry, with d a column (one entry per row, repeated along
  the row) and b a row (one entry per column, repeated down the rows).
-/
import proofs.«121958_j55293408969104_1_alg».proof.Proof.Gen.KernelIdeal.Skeleton
import proofs.«121958_j55293408969104_1_alg».proof.Proof.LibPlainDot
import proofs.«121958_j55293408969104_1_alg».proof.Proof.LibLayoutCol
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The dimension numbers of the two square products: rows [10000, 128] times [128, 128]. -/
abbrev dSq := dot_S10000x128_S128x128_S10000x128_1_0_0_1_n_n
/-- The dimension numbers of the last product: rows [10000, 128] times [128, 40]. -/
abbrev dHd := dot_S10000x128_S128x40_S10000x40_1_0_0_1_n_n

/-- The square product's left index keeps the entry's row … -/
theorem dSq_lhs0 (j : S10000x128.Idx) (r : dSq.contr.Idx) : (dSq.lhsIdx j r 0).val = (j 0).val := by
  unfold DotDims.lhsIdx
  rw [dif_neg (show ¬(0 : Fin S10000x128.rank) ∈ dSq.lhsBatch by decide), dif_pos (show (0 : Fin S10000x128.rank) ∈ dSq.lhsNonContracting by decide)]
  rfl
/-- … and runs along the contracted axis. -/
theorem dSq_lhs1 (j : S10000x128.Idx) (r : dSq.contr.Idx) : (dSq.lhsIdx j r 1).val = (r ⟨0, by decide⟩).val :=
  dSq.lhsIdx_val_of_single rfl j r
/-- The square product's right index runs down the contracted axis … -/
theorem dSq_rhs0 (j : S10000x128.Idx) (r : dSq.contr.Idx) : (dSq.rhsIdx j r 0).val = (r ⟨0, by decide⟩).val :=
  dSq.rhsIdx_val_of_single rfl j r
/-- … and keeps the entry's column. -/
theorem dSq_rhs1 (j : S10000x128.Idx) (r : dSq.contr.Idx) : (dSq.rhsIdx j r 1).val = (j 1).val := by
  unfold DotDims.rhsIdx
  rw [dif_neg (show ¬(1 : Fin S128x128.rank) ∈ dSq.rhsBatch by decide), dif_pos (show (1 : Fin S128x128.rank) ∈ dSq.rhsNonContracting by decide)]
  rfl

/-- At entry (p, q) the square product reads its left operand along row p. -/
theorem dSq_lhs (p : Fin 10000) (q : Fin 128) (r : dSq.contr.Idx) :
    dSq.lhsIdx (ix2 p q) r = ix2 p (contrEquiv1 dSq 128 rfl rfl r) :=
  funext fun a => Fin.ext (by
    match a with
    | ⟨0, _⟩ => exact dSq_lhs0 _ _
    | ⟨1, _⟩ => exact dSq_lhs1 _ _)

/-- At entry (p, q) the square product reads its right operand down column q. -/
theorem dSq_rhs (p : Fin 10000) (q : Fin 128) (r : dSq.contr.Idx) :
    dSq.rhsIdx (ix2 p q) r = ix2 (contrEquiv1 dSq 128 rfl rfl r) q :=
  funext fun a => Fin.ext (by
    match a with
    | ⟨0, _⟩ => exact dSq_rhs0 _ _
    | ⟨1, _⟩ => exact dSq_rhs1 _ _)

/-- The last product's left index keeps the entry's row … -/
theorem dHd_lhs0 (j : S10000x40.Idx) (r : dHd.contr.Idx) : (dHd.lhsIdx j r 0).val = (j 0).val := by
  unfold DotDims.lhsIdx
  rw [dif_neg (show ¬(0 : Fin S10000x128.rank) ∈ dHd.lhsBatch by decide), dif_pos (show (0 : Fin S10000x128.rank) ∈ dHd.lhsNonContracting by decide)]
  rfl
/-- … and runs along the contracted axis. -/
theorem dHd_lhs1 (j : S10000x40.Idx) (r : dHd.contr.Idx) : (dHd.lhsIdx j r 1).val = (r ⟨0, by decide⟩).val :=
  dHd.lhsIdx_val_of_single rfl j r
/-- The last product's right index runs down the contracted axis … -/
theorem dHd_rhs0 (j : S10000x40.Idx) (r : dHd.contr.Idx) : (dHd.rhsIdx j r 0).val = (r ⟨0, by decide⟩).val :=
  dHd.rhsIdx_val_of_single rfl j r
/-- … and keeps the entry's column. -/
theorem dHd_rhs1 (j : S10000x40.Idx) (r : dHd.contr.Idx) : (dHd.rhsIdx j r 1).val = (j 1).val := by
  unfold DotDims.rhsIdx
  rw [dif_neg (show ¬(1 : Fin S128x40.rank) ∈ dHd.rhsBatch by decide), dif_pos (show (1 : Fin S128x40.rank) ∈ dHd.rhsNonContracting by decide)]
  rfl

/-- At entry (p, q) the last product reads its left operand along row p. -/
theorem dHd_lhs (p : Fin 10000) (q : Fin 40) (r : dHd.contr.Idx) :
    dHd.lhsIdx (ix2 p q) r = ix2 p (contrEquiv1 dHd 128 rfl rfl r) :=
  funext fun a => Fin.ext (by
    match a with
    | ⟨0, _⟩ => exact dHd_lhs0 _ _
    | ⟨1, _⟩ => exact dHd_lhs1 _ _)

/-- At entry (p, q) the last product reads its right operand down column q. -/
theorem dHd_rhs (p : Fin 10000) (q : Fin 40) (r : dHd.contr.Idx) :
    dHd.rhsIdx (ix2 p q) r = ix2 (contrEquiv1 dHd 128 rfl rfl r) q :=
  funext fun a => Fin.ext (by
    match a with
    | ⟨0, _⟩ => exact dHd_rhs0 _ _
    | ⟨1, _⟩ => exact dHd_rhs1 _ _)

/-- The first dense body: entry (p, q) of what it stores is the sum over k of x(p, k) · w(k, q). -/
theorem dense0_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  exact Cert.LibPlainDot.matmul_zero_apply dSq none 128 rfl rfl _ _ (ix2 p q) (fun k => ix2 p k) (fun k => ix2 k q)
    (dSq_lhs p q) (dSq_rhs p q)

/-- The second dense body (the same, behind a cast of its rows to their own shape). -/
theorem dense2_apply (x : Vec Ideal S10000x128 .f32) (w : Vec Ideal S128x128 .f32) (p : Fin 10000) (q : Fin 128) :
    k2_pay1 (F := Ideal) x w (ix2 p q) = ∑ k : Fin 128, x (ix2 p k) * w (ix2 k q) := by
  unfold k2_pay1
  refine (Cert.LibPlainDot.matmul_zero_apply dSq none 128 rfl rfl _ _ (ix2 p q) (fun k => ix2 p k) (fun k => ix2 k q)
    (dSq_lhs p q) (dSq_rhs p q)).trans ?_
  refine Finset.sum_congr rfl fun k _ => ?_
  exact congrArg (· * w (ix2 k q)) (congrFun (shapeCast_self x shapeCasts_S10000x128_S10000x128) (ix2 p k))

/-- The last dense body: the product's entry plus the bias row's entry of that column. -/
theorem dense4_apply (x : Vec Ideal S10000x128 .f32) (w : Vec Ideal S128x40 .f32) (b : Vec Ideal S1x40 .f32) (p : Fin 10000) (q : Fin 40) :
    k4_pay1 (F := Ideal) x w b (ix2 p q) = (∑ k : Fin 128, x (ix2 p k) * w (ix2 k q)) + b (ix2 (0 : Fin 1) q) := by
  have eb : shapeCast S1x40 b shapeCasts_S1x40_S1x40 = b := shapeCast_self b _
  unfold k4_pay1
  refine Eq.trans (b := (∑ k : Fin 128, shapeCast S10000x128 x shapeCasts_S10000x128_S10000x128 (ix2 p k) * w (ix2 k q))
      + broadcastTo S10000x40 (shapeCast S1x40 b shapeCasts_S1x40_S1x40) broadcasts_S1x40_S10000x40 (ix2 p q)) ?_ ?_
  · exact congrArg (· + broadcastTo S10000x40 (shapeCast S1x40 b shapeCasts_S1x40_S1x40) broadcasts_S1x40_S10000x40 (ix2 p q))
      (Cert.LibPlainDot.matmul_zero_apply dHd none 128 rfl rfl _ _ (ix2 p q) (fun k => ix2 p k) (fun k => ix2 k q)
        (dHd_lhs p q) (dHd_rhs p q))
  · rw [eb, broadcastTo_1b_ab_apply, shapeCast_self x shapeCasts_S10000x128_S10000x128]

/-- The combining body, entry by entry (the same for both layers). -/
theorem combine1_apply (a h : Vec Ideal S5000x128 .f32) (d : Vec Ideal S5000x1 .f32) (b : Vec Ideal S1x128 .f32) (p : Fin 5000) (q : Fin 128) :
    k1_pay1 (F := Ideal) a h d b (ix2 p q)
      = max ((a (ix2 p q) + h (ix2 p q) * d (ix2 p (0 : Fin 1))) + b (ix2 (0 : Fin 1) q)) (Ideal.ofBits .f32 0x00000000#32) := by
  have ea : shapeCast S5000x128 a shapeCasts_S5000x128_S5000x128 = a := shapeCast_self a _
  have eh : shapeCast S5000x128 h shapeCasts_S5000x128_S5000x128 = h := shapeCast_self h _
  have ed : shapeCast S5000x1 d shapeCasts_S5000x1_S5000x1 = d := shapeCast_self d _
  have eb : shapeCast S1x128 b shapeCasts_S1x128_S1x128 = b := shapeCast_self b _
  unfold k1_pay1
  show max ((shapeCast S5000x128 a shapeCasts_S5000x128_S5000x128 (ix2 p q)
        + shapeCast S5000x128 h shapeCasts_S5000x128_S5000x128 (ix2 p q)
          * broadcastTo S5000x128 (shapeCast S5000x1 d shapeCasts_S5000x1_S5000x1) broadcasts_S5000x1_S5000x128 (ix2 p q))
        + broadcastTo S5000x128 (shapeCast S1x128 b shapeCasts_S1x128_S1x128) broadcasts_S1x128_S5000x128 (ix2 p q))
      (Ideal.ofBits .f32 0x00000000#32) = _
  rw [ea, eh, ed, eb, broadcastTo_a1_ab_apply, broadcastTo_1b_ab_apply]

/-- The second combining body is the first one's text. -/
theorem combine3_apply (a h : Vec Ideal S5000x128 .f32) (d : Vec Ideal S5000x1 .f32) (b : Vec Ideal S1x128 .f32) (p : Fin 5000) (q : Fin 128) :
    k3_pay1 (F := Ideal) a h d b (ix2 p q)
      = max ((a (ix2 p q) + h (ix2 p q) * d (ix2 p (0 : Fin 1))) + b (ix2 (0 : Fin 1) q)) (Ideal.ofBits .f32 0x00000000#32) :=
  combine1_apply a h d b p q

end Cert.KernelIdeal.Body

end
-- ==== Proof.Region0.lean ====
/-
  The first kernel: the node features times the first weight matrix, ten blocks of 10000 rows.

  Grid point t is handed rows 10000·t … 10000·t + 9999 of the features and the whole weight matrix, and writes back
  the same rows of the product. A point's rows of the product depend on its rows of the features only, so what it
  writes back is its block of `mm` of the two whole arrays; the ten blocks tile the rows, so the array ends at `mm`.
  Stated for any contents `V` of the buffers when the kernel is entered.
-/
import proofs.«121958_j55293408969104_1_alg».proof.Proof.Gen.KernelIdeal.Frame
import proofs.«121958_j55293408969104_1_alg».proof.Proof.Bodies
import proofs.«121958_j55293408969104_1_alg».proof.Proof.Spec

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- One point of a dense step over variables: if a block's rows are rows r0 … of `X` and its weights are `W`, the body's
    entry (p, q) is entry (r0 + p, q) of `mm X W`. -/
theorem dense0_point (X : SNH.Idx → EReal) (W : SHH.Idx → EReal) (x : Vec Ideal S10000x128 .f32) (w : Vec Ideal S128x128 .f32) (r0 : ℕ)
    (hx : ∀ (p : Fin 10000) (k : Fin 128) (i : SNH.Idx), (i 0).val = r0 + p.val → (i 1).val = k.val → x (ix2 p k) = X i)
    (hw : ∀ (k : Fin 128) (q : Fin 128) (i : SHH.Idx), (i 0).val = k.val → (i 1).val = q.val → w (ix2 k q) = W i)
    (p : Fin 10000) (q : Fin 128) (i : SNH.Idx) (h0 : (i 0).val = r0 + p.val) (h1 : (i 1).val = q.val) :
    k0_pay1 (F := Ideal) x w (ix2 p q) = mm X W i := by
  rw [Body.dense0_apply]
  unfold mm
  refine Finset.sum_congr rfl fun k _ => ?_
  rw [hx p k (ix2 (i 0) k) h0 rfl, hw k q (ix2 k (i 1)) rfl h1]

/-- The index maps, decided over the ten points: the rows' block index is the point, every other block index is 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of `mm` of the features and the weights as the kernel finds them. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = mm (V c main_arg0) (V c main_arg2) (((cfg0.win 2).blk t).view.emb (ix2 p q))
  refine dense0_point (V c main_arg0) (V c main_arg2) (iblk0 V c 0 t) (iblk0 V c 1 t) (t.val * 10000) ?_ ?_ p q
    (((cfg0.win 2).blk t).view.emb (ix2 p q)) ?_ ?_
  · intro p k i h0 h1
    show V c main_arg0 (((cfg0.win 0).blk t).view.emb (ix2 p k)) = V c main_arg0 i
    refine congrArg (V c main_arg0) (funext fun a => Fin.ext ?_)
    match a with
    | ⟨0, _⟩ => show win0_0.index t (0 : Fin 2) * 10000 + 1 * p.val = (i 0).val; rw [e00, h0]; omega
    | ⟨1, _⟩ => show win0_0.index t (1 : Fin 2) * 128 + 1 * k.val = (i 1).val; rw [e01, h1]; omega
  · intro k q i h0 h1
    show V c main_arg2 (((cfg0.win 1).blk t).view.emb (ix2 k q)) = V c main_arg2 i
    refine congrArg (V c main_arg2) (funext fun a => Fin.ext ?_)
    match a with
    | ⟨0, _⟩ => show win0_1.index t (0 : Fin 2) * 128 + 1 * k.val = (i 0).val; rw [e10, h0]; omega
    | ⟨1, _⟩ => show win0_1.index t (1 : Fin 2) * 128 + 1 * q.val = (i 1).val; rw [e11, h1]; omega
  · show win0_2.index t (0 : Fin 2) * 10000 + 1 * p.val = t.val * 10000 + p.val; rw [e20]; omega
  · show win0_2.index t (1 : Fin 2) * 128 + 1 * q.val = q.val; rw [e21]; omega

/-- An index of the product is in point t's block iff each coordinate is in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v28).slice (win0_2.rect t)).set ↔ _
  rw [View.set_slice_whole, Rect.mem_set_unit]
  exact Iff.rfl

/-- Every row of the product is in some point's block: row n in block n / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; rw [hN]; omega⟩
  obtain ⟨-, -, -, -, e20, e21⟩ := idx0 t
  have e20' : win0_2.index t (0 : Fin 2) = (i 0).val / 10000 := e20
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e20']; omega
  | ⟨1, _⟩ => show win0_2.index t (1 : Fin 2) * 128 ≤ (i 1).val ∧ (i 1).val < win0_2.index t (1 : Fin 2) * 128 + 128; rw [e21]; omega

/-- The product's array after the first kernel: `mm` of the features and the weights as the kernel found them. -/
theorem arr0 (c : Dev nD) : (dat0 V c).arrAt 2 cfg0.N = mm (V c main_arg0) (V c main_arg2) :=
  (dat0 V c).arrAt_eq_of_cover 2 (mm (V c main_arg0) (V c main_arg2)) (fun t _ => flushed0 V c t) (cover0)

end Cert.KernelIdeal.Arr

end
-- ==== Proof.FoldA.lean ====
/-
  The fold through the program, first stretch: up to the entry of the first combining kernel.

  Before the first kernel the host computes, from the edge list alone, the two rows of the edge list as vectors, the
  per-edge normaliser and the column of self-loop weights: the same operations, in the same order, as the reference's,
  so each buffer holds the reference's stage of that name's meaning (the self-loop column is spelt as a cast where the
  reference broadcasts in dimensions: the same array). The first kernel leaves the first product, `mm` of the features
  and the first weights, which is the reference's first product. The next host stretch gathers that product's rows
  along the edges, scales and scatter-adds them, again the reference's text on equal operands, and lays the first
  bias out as a row.
-/
import proofs.«121958_j55293408969104_1_alg».proof.Proof.FoldArgs
import proofs.«121958_j55293408969104_1_alg».proof.Proof.LibColRow
import proofs.«121958_j55293408969104_1_alg».proof.Proof.Region0

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Gcn
open Cert.ReferenceIdeal.Read Cert.ReferenceIdeal.Stages

variable (m : (ℓ : Loc nD τ sig) → Buf (Elt Ideal) ℓ) (ρ : Dev nD → PrngReg) (c : Dev nD)

/-- A buffer that no operation of a host stretch writes holds after the stretch what it held before. -/
local macro "keep_host" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The source row of the edge list. -/
theorem w1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The destination row of the edge list. -/
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The per-edge normaliser: the inverse square roots of the two end points' degrees, multiplied. -/
theorem w1_v27 : W1 m ρ c (Proc.devRef .tc main_v27) = val_main_v26 (F := Ideal) (m ((c : Thread nD τ).loc main_arg1)) := by
  show StableHlo.after hostOps0 (W0 m ρ c) (Proc.devRef .tc main_v27) = _
  after_results_simp
  rfl

/-- The column of self-loop weights: the kernel program casts the vector to a column, the reference broadcasts it in
    dimensions along axis 0. -/
theorem w1_v12 : W1 m ρ c (Proc.devRef .tc main_v12) = val_main_v41 (F := Ideal) (m ((c : Thread nD τ).loc main_arg1)) := by
  show StableHlo.after hostOps0 (W0 m ρ c) (Proc.devRef .tc main_v12) = _
  after_results_simp
  refine (shapeCast_col_eq_broadcastInDim _ _ Cert.ReferenceIdeal.Facts₀.bcast_S100000_S100000x1_0).trans ?_
  rfl

theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_v27 : W2 m ρ c (Proc.devRef .tc main_v27) = val_main_v26 (F := Ideal) (m ((c : Thread nD τ).loc main_arg1)) :=
  (W2_of_ne m ρ c main_v27 (by decide)).trans (w1_v27 m ρ c)
theorem w2_v12 : W2 m ρ c (Proc.devRef .tc main_v12) = val_main_v41 (F := Ideal) (m ((c : Thread nD τ).loc main_arg1)) :=
  (W2_of_ne m ρ c main_v12 (by decide)).trans (w1_v12 m ρ c)

/-- The first product. -/
theorem w2_v28 : W2 m ρ c (Proc.devRef .tc main_v28) = val_main_v4 (F := Ideal) (m ((c : Thread nD τ).loc main_arg0)) (m ((c : Thread nD τ).loc main_arg2)) := by
  refine (W2_arr m ρ c 2).trans ((Arr.arr0 (V1 m ρ) c).trans ?_)
  show mm (W1 m ρ c (Proc.devRef .tc main_arg0)) (W1 m ρ c (Proc.devRef .tc main_arg2)) = _
  rw [w1_arg0 m ρ c, w1_arg2 m ρ c]
  exact (mm_ref _ _).symm

theorem w3_v1 : W3 m ρ c (Proc.devRef .tc main_v1) = val_main_v1 (F := Ideal) (m ((c : Thread nD τ).loc main_arg1)) :=
  (show StableHlo.after hostOps1 (W2 m ρ c) (Proc.devRef .tc main_v1) = W2 m ρ c (Proc.devRef .tc main_v1) by keep_host).trans (w2_v1 m ρ c)
theorem w3_v3 : W3 m ρ c (Proc.devRef .tc main_v3) = val_main_v3 (F := Ideal) (m ((c : Thread nD τ).loc main_arg1)) :=
  (show StableHlo.after hostOps1 (W2 m ρ c) (Proc.devRef .tc main_v3) = W2 m ρ c (Proc.devRef .tc main_v3) by keep_host).trans (w2_v3 m ρ c)
theorem w3_v27 : W3 m ρ c (Proc.devRef .tc main_v27) = val_main_v26 (F := Ideal) (m ((c : Thread nD τ).loc main_arg1)) :=
  (show StableHlo.after hostOps1 (W2 m ρ c) (Proc.devRef .tc main_v27) = W2 m ρ c (Proc.devRef .tc main_v27) by keep_host).trans (w2_v27 m ρ c)
theorem w3_v12 : W3 m ρ c (Proc.devRef .tc main_v12) = val_main_v41 (F := Ideal) (m ((c : Thread nD τ).loc main_arg1)) :=
  (show StableHlo.after hostOps1 (W2 m ρ c) (Proc.devRef .tc main_v12) = W2 m ρ c (Proc.devRef .tc main_v12) by keep_host).trans (w2_v12 m ρ c)
theorem w3_v28 : W3 m ρ c (Proc.devRef .tc main_v28) = val_main_v4 (F := Ideal) (m ((c : Thread nD τ).loc main_arg0)) (m ((c : Thread nD τ).loc main_arg2)) :=
  (show StableHlo.after hostOps1 (W2 m ρ c) (Proc.devRef .tc main_v28) = W2 m ρ c (Proc.devRef .tc main_v28) by keep_host).trans (w2_v28 m ρ c)

/-- The first layer's aggregate: the product's rows gathered along the edges, scaled, scatter-added at the destinations. -/
theorem w3_v41 : W3 m ρ c (Proc.devRef .tc main_v41) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  rw [w2_v1 m ρ c, w2_v3 m ρ c, w2_v27 m ρ c, w2_v28 m ρ c]
  rfl

/-- The first bias as a row: a cast in the kernel program, a broadcast in dimensions along axis 1 in the reference. -/
theorem w3_v42 : W3 m ρ c (Proc.devRef .tc main_v42) = val_main_v45 (F := Ideal) (m ((c : Thread nD τ).loc main_arg3)) := by
  show StableHlo.after hostOps1 (W2 m ρ c) (Proc.devRef .tc main_v42) = _
  after_results
  rw [w2_arg3 m ρ c]
  exact shapeCast_row_eq_broadcastInDim _ _ _

end Cert.KernelIdeal.Fold

end
-- ==== Proof.Region1.lean ====
/-
  The first combining kernel: twenty blocks of 5000 rows.

  Grid point t is handed rows 5000·t … 5000·t + 4999 of the aggregate, of the node's own transformed features and of
  the self-loop column, and the whole bias row; it writes back the same rows of max((a + h · d) + b, 0). Entry (n, q)
  of that depends on entry (n, q) of the first two arrays, entry n of the column and entry q of the row, so a point
  writes back its block of `comb` of the four whole arrays, and the twenty blocks tile the rows.
  Stated for any contents `V` of the buffers when the kernel is entered.
-/
import proofs.«121958_j55293408969104_1_alg».proof.Proof.Gen.KernelIdeal.Frame
import proofs.«121958_j55293408969104_1_alg».proof.Proof.Bodies
import proofs.«121958_j55293408969104_1_alg».proof.Proof.Spec
import proofs.«121958_j55293408969104_1_alg».proof.Proof.Region0

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- One point of a closing step over variables: if a block's rows are rows r0 … of `A`, `H` and the column `D`, and its
    bias row is `B`, the body's entry (p, q) is entry (r0 + p, q) of `comb A H D B`. -/
theorem comb1_point (A H : SNH.Idx → EReal) (D : SN1.Idx → EReal) (B : S1H.Idx → EReal)
    (a h : Vec Ideal S5000x128 .f32) (d : Vec Ideal S5000x1 .f32) (b : Vec Ideal S1x128 .f32) (r0 : ℕ)
    (ha : ∀ (p : Fin 5000) (q : Fin 128) (i : SNH.Idx), (i 0).val = r0 + p.val → (i 1).val = q.val → a (ix2 p q) = A i)
    (hh : ∀ (p : Fin 5000) (q : Fin 128) (i : SNH.Idx), (i 0).val = r0 + p.val → (i 1).val = q.val → h (ix2 p q) = H i)
    (hd : ∀ (p : Fin 5000) (i : SN1.Idx), (i 0).val = r0 + p.val → d (ix2 p (0 : Fin 1)) = D i)
    (hb : ∀ (q : Fin 128) (i : S1H.Idx), (i 1).val = q.val → b (ix2 (0 : Fin 1) q) = B i)
    (p : Fin 5000) (q : Fin 128) (i : SNH.Idx) (h0 : (i 0).val = r0 + p.val) (h1 : (i 1).val = q.val) :
    k1_pay1 (F := Ideal) a h d b (ix2 p q) = comb A H D B i := by
  rw [Body.combine1_apply]
  unfold comb
  rw [ha p q i h0 h1, hh p q i h0 h1, hd p (ix2 (i 0) (0 : Fin 1)) h0, hb q (ix2 (0 : Fin 1) (i 1)) h1]

/-- The index maps, decided over the twenty points: the row blocks move with the point, the bias row stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is its block of `comb` of the four arrays as the kernel finds them. -/
theorem flushed1 (c : Dev nD) (t : Fin cfg1.N) :
    (dat1 V c).flushed 4 t = ((cfg1.win 4).blk t).view.read (Elt Ideal)
      (comb (V c main_v41) (V c main_v28) (V c main_v12) (V c main_v42)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (ix2 p q)
    = comb (V c main_v41) (V c main_v28) (V c main_v12) (V c main_v42) (((cfg1.win 4).blk t).view.emb (ix2 p q))
  refine comb1_point (V c main_v41) (V c main_v28) (V c main_v12) (V c main_v42)
    (iblk1 V c 0 t) (iblk1 V c 1 t) (iblk1 V c 2 t) (iblk1 V c 3 t) (t.val * 5000) ?_ ?_ ?_ ?_ p q
    (((cfg1.win 4).blk t).view.emb (ix2 p q)) ?_ ?_
  · intro p q i h0 h1
    show V c main_v41 (((cfg1.win 0).blk t).view.emb (ix2 p q)) = V c main_v41 i
    refine congrArg (V c main_v41) (funext fun a => Fin.ext ?_)
    match a with
    | ⟨0, _⟩ => show win1_0.index t (0 : Fin 2) * 5000 + 1 * p.val = (i 0).val; rw [e00, h0]; omega
    | ⟨1, _⟩ => show win1_0.index t (1 : Fin 2) * 128 + 1 * q.val = (i 1).val; rw [e01, h1]; omega
  · intro p q i h0 h1
    show V c main_v28 (((cfg1.win 1).blk t).view.emb (ix2 p q)) = V c main_v28 i
    refine congrArg (V c main_v28) (funext fun a => Fin.ext ?_)
    match a with
    | ⟨0, _⟩ => show win1_1.index t (0 : Fin 2) * 5000 + 1 * p.val = (i 0).val; rw [e10, h0]; omega
    | ⟨1, _⟩ => show win1_1.index t (1 : Fin 2) * 128 + 1 * q.val = (i 1).val; rw [e11, h1]; omega
  · intro p i h0
    have hi1 : (i 1).val < 1 := (i 1).isLt
    show V c main_v12 (((cfg1.win 2).blk t).view.emb (ix2 p (0 : Fin 1))) = V c main_v12 i
    refine congrArg (V c main_v12) (funext fun a => Fin.ext ?_)
    match a with
    | ⟨0, _⟩ => show win1_2.index t (0 : Fin 2) * 5000 + 1 * p.val = (i 0).val; rw [e20, h0]; omega
    | ⟨1, _⟩ => show win1_2.index t (1 : Fin 2) * 1 + 1 * 0 = (i 1).val; rw [e21]; omega
  · intro q i h1
    have hi0 : (i 0).val < 1 := (i 0).isLt
    show V c main_v42 (((cfg1.win 3).blk t).view.emb (ix2 (0 : Fin 1) q)) = V c main_v42 i
    refine congrArg (V c main_v42) (funext fun a => Fin.ext ?_)
    match a with
    | ⟨0, _⟩ => show win1_3.index t (0 : Fin 2) * 1 + 1 * 0 = (i 0).val; rw [e30]; omega
    | ⟨1, _⟩ => show win1_3.index t (1 : Fin 2) * 128 + 1 * q.val = (i 1).val; rw [e31, h1]; omega
  · show win1_4.index t (0 : Fin 2) * 5000 + 1 * p.val = t.val * 5000 + p.val; rw [e40]; omega
  · show win1_4.index t (1 : Fin 2) * 128 + 1 * q.val = q.val; rw [e41]; omega

/-- An index of the layer's output is in point t's block iff each coordinate is in the block's range. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every row of the layer's output is in some point's block: row n in block n / 5000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; rw [hN]; omega⟩
  obtain ⟨-, -, -, -, -, -, -, -, e40, e41⟩ := idx1 t
  have e40' : win1_4.index t (0 : Fin 2) = (i 0).val / 5000 := e40
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e40']; omega
  | ⟨1, _⟩ => show win1_4.index t (1 : Fin 2) * 128 ≤ (i 1).val ∧ (i 1).val < win1_4.index t (1 : Fin 2) * 128 + 128; rw [e41]; omega

/-- The layer's output array after the kernel: `comb` of the four arrays as the kernel found them. -/
theorem arr1 (c : Dev nD) :
    (dat1 V c).arrAt 4 cfg1.N = comb (V c main_v41) (V c main_v28) (V c main_v12) (V c main_v42) :=
  (dat1 V c).arrAt_eq_of_cover 4 (comb (V c main_v41) (V c main_v28) (V c main_v12) (V c main_v42))
    (fun t _ => flushed1 V c t) (cover1)

end Cert.KernelIdeal.Arr

end
-- ==== Proof.Region2.lean ====
/-
  The third kernel: the first layer's output times the second weight matrix, ten blocks of 10000 rows.

  Grid point t is handed rows 10000·t … 10000·t + 9999 of the features and the whole weight matrix, and writes back
  the same rows of the product. A point's rows of the product depend on its rows of the features only, so what it
  writes back is its block of `mm` of the two whole arrays; the ten blocks tile the rows, so the array ends at `mm`.
  Stated for any contents `V` of the buffers when the kernel is entered.
-/
import proofs.«121958_j55293408969104_1_alg».proof.Proof.Gen.KernelIdeal.Frame
import proofs.«121958_j55293408969104_1_alg».proof.Proof.Bodies
import proofs.«121958_j55293408969104_1_alg».proof.Proof.Spec
import proofs.«121958_j55293408969104_1_alg».proof.Proof.Region0

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- One point of a dense step over variables: if a block's rows are rows r0 … of `X` and its weights are `W`, the body's
    entry (p, q) is entry (r0 + p, q) of `mm X W`. -/
theorem dense2_point (X : SNH.Idx → EReal) (W : SHH.Idx → EReal) (x : Vec Ideal S10000x128 .f32) (w : Vec Ideal S128x128 .f32) (r0 : ℕ)
    (hx : ∀ (p : Fin 10000) (k : Fin 128) (i : SNH.Idx), (i 0).val = r0 + p.val → (i 1).val = k.val → x (ix2 p k) = X i)
    (hw : ∀ (k : Fin 128) (q : Fin 128) (i : SHH.Idx), (i 0).val = k.val → (i 1).val = q.val → w (ix2 k q) = W i)
    (p : Fin 10000) (q : Fin 128) (i : SNH.Idx) (h0 : (i 0).val = r0 + p.val) (h1 : (i 1).val = q.val) :
    k2_pay1 (F := Ideal) x w (ix2 p q) = mm X W i := by
  rw [Body.dense2_apply]
  unfold mm
  refine Finset.sum_congr rfl fun k _ => ?_
  rw [hx p k (ix2 (i 0) k) h0 rfl, hw k q (ix2 k (i 1)) rfl h1]

/-- The index maps, decided over the ten points: the rows' block index is the point, every other block index is 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is its block of `mm` of the features and the weights as the kernel finds them. -/
theorem flushed2 (c : Dev nD) (t : Fin cfg2.N) :
    (dat2 V c).flushed 2 t = ((cfg2.win 2).blk t).view.read (Elt Ideal) (mm (V c main_v43) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e00, e01, e10, e11, e20, e21⟩ := idx2 t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (ix2 p q)
    = mm (V c main_v43) (V c main_arg4) (((cfg2.win 2).blk t).view.emb (ix2 p q))
  refine dense2_point (V c main_v43) (V c main_arg4) (iblk2 V c 0 t) (iblk2 V c 1 t) (t.val * 10000) ?_ ?_ p q
    (((cfg2.win 2).blk t).view.emb (ix2 p q)) ?_ ?_
  · intro p k i h0 h1
    show V c main_v43 (((cfg2.win 0).blk t).view.emb (ix2 p k)) = V c main_v43 i
    refine congrArg (V c main_v43) (funext fun a => Fin.ext ?_)
    match a with
    | ⟨0, _⟩ => show win2_0.index t (0 : Fin 2) * 10000 + 1 * p.val = (i 0).val; rw [e00, h0]; omega
    | ⟨1, _⟩ => show win2_0.index t (1 : Fin 2) * 128 + 1 * k.val = (i 1).val; rw [e01, h1]; omega
  · intro k q i h0 h1
    show V c main_arg4 (((cfg2.win 1).blk t).view.emb (ix2 k q)) = V c main_arg4 i
    refine congrArg (V c main_arg4) (funext fun a => Fin.ext ?_)
    match a with
    | ⟨0, _⟩ => show win2_1.index t (0 : Fin 2) * 128 + 1 * k.val = (i 0).val; rw [e10, h0]; omega
    | ⟨1, _⟩ => show win2_1.index t (1 : Fin 2) * 128 + 1 * q.val = (i 1).val; rw [e11, h1]; omega
  · show win2_2.index t (0 : Fin 2) * 10000 + 1 * p.val = t.val * 10000 + p.val; rw [e20]; omega
  · show win2_2.index t (1 : Fin 2) * 128 + 1 * q.val = q.val; rw [e21]; omega

/-- An index of the product is in point t's block iff each coordinate is in the block's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v44).slice (win2_2.rect t)).set ↔ _
  rw [View.set_slice_whole, Rect.mem_set_unit]
  exact Iff.rfl

/-- Every row of the product is in some point's block: row n in block n / 10000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  let t : Fin cfg2.N := ⟨(i 0).val / 10000, by show (i 0).val / 10000 < grid2.N; rw [hN]; omega⟩
  obtain ⟨-, -, -, -, e20, e21⟩ := idx2 t
  have e20' : win2_2.index t (0 : Fin 2) = (i 0).val / 10000 := e20
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e20']; omega
  | ⟨1, _⟩ => show win2_2.index t (1 : Fin 2) * 128 ≤ (i 1).val ∧ (i 1).val < win2_2.index t (1 : Fin 2) * 128 + 128; rw [e21]; omega

/-- The product's array after the third kernel: `mm` of the features and the weights as the kernel found them. -/
theorem arr2 (c : Dev nD) : (dat2 V c).arrAt 2 cfg2.N = mm (V c main_v43) (V c main_arg4) :=
  (dat2 V c).arrAt_eq_of_cover 2 (mm (V c main_v43) (V c main_arg4)) (fun t _ => flushed2 V c t) (cover2)

end Cert.KernelIdeal.Arr

end
-- ==== Proof.FoldB.lean ====
/-
  The fold through the program, second stretch: the first combining kernel and the second product.

  The first combining kernel finds the aggregate, the first product, the self-loop column and the bias row and leaves
  `comb` of them: the reference's first layer output. The next kernel multiplies that by the second weights.
-/
import proofs.«121958_j55293408969104_1_alg».proof.Proof.FoldA
import proofs.«121958_j55293408969104_1_alg».proof.Proof.Region1
import proofs.«121958_j55293408969104_1_alg».proof.Proof.Region2

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Gcn
open Cert.ReferenceIdeal.Read Cert.ReferenceIdeal.Stages

variable (m : (ℓ : Loc nD τ sig) → Buf (Elt Ideal) ℓ) (ρ : Dev nD → PrngReg) (c : Dev nD)

/-- A buffer that no operation of a host stretch writes holds after the stretch what it held before. -/
local macro "keep_host" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem w4_v1 : W4 m ρ c (Proc.devRef .tc main_v1) = val_main_v1 (F := Ideal) (m ((c : Thread nD τ).loc main_arg1)) :=
  (W4_of_ne m ρ c main_v1 (by decide)).trans (w3_v1 m ρ c)
theorem w4_v3 : W4 m ρ c (Proc.devRef .tc main_v3) = val_main_v3 (F := Ideal) (m ((c : Thread nD τ).loc main_arg1)) :=
  (W4_of_ne m ρ c main_v3 (by decide)).trans (w3_v3 m ρ c)
theorem w4_v27 : W4 m ρ c (Proc.devRef .tc main_v27) = val_main_v26 (F := Ideal) (m ((c : Thread nD τ).loc main_arg1)) :=
  (W4_of_ne m ρ c main_v27 (by decide)).trans (w3_v27 m ρ c)
theorem w4_v12 : W4 m ρ c (Proc.devRef .tc main_v12) = val_main_v41 (F := Ideal) (m ((c : Thread nD τ).loc main_arg1)) :=
  (W4_arr m ρ c 2).trans (((dat1 (V3 m ρ) c).arrAt_in 2 rfl _).trans ((A_eq1 (V3 m ρ) c 2).trans (w3_v12 m ρ c)))

/-- The first layer's output. -/
theorem w4_v43 : W4 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Arr.arr1 (V3 m ρ) c).trans ?_)
  show comb (W3 m ρ c (Proc.devRef .tc main_v41)) (W3 m ρ c (Proc.devRef .tc main_v28)) (W3 m ρ c (Proc.devRef .tc main_v12))
    (W3 m ρ c (Proc.devRef .tc main_v42)) = _
  rw [w3_v41 m ρ c, w3_v28 m ρ c, w3_v12 m ρ c, w3_v42 m ρ c]
  exact (comb_ref _ _ _ _).symm

theorem w5_v1 : W5 m ρ c (Proc.devRef .tc main_v1) = val_main_v1 (F := Ideal) (m ((c : Thread nD τ).loc main_arg1)) :=
  (W5_of_ne m ρ c main_v1 (by decide)).trans (w4_v1 m ρ c)
theorem w5_v3 : W5 m ρ c (Proc.devRef .tc main_v3) = val_main_v3 (F := Ideal) (m ((c : Thread nD τ).loc main_arg1)) :=
  (W5_of_ne m ρ c main_v3 (by decide)).trans (w4_v3 m ρ c)
theorem w5_v27 : W5 m ρ c (Proc.devRef .tc main_v27) = val_main_v26 (F := Ideal) (m ((c : Thread nD τ).loc main_arg1)) :=
  (W5_of_ne m ρ c main_v27 (by decide)).trans (w4_v27 m ρ c)
theorem w5_v12 : W5 m ρ c (Proc.devRef .tc main_v12) = val_main_v41 (F := Ideal) (m ((c : Thread nD τ).loc main_arg1)) :=
  (W5_of_ne m ρ c main_v12 (by decide)).trans (w4_v12 m ρ c)

/-- The second product. -/
theorem w5_v44 : W5 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Arr.arr2 (V4 m ρ) c).trans ?_)
  show mm (W4 m ρ c (Proc.devRef .tc main_v43)) (W4 m ρ c (Proc.devRef .tc main_arg4)) = _
  rw [w4_v43 m ρ c, w4_arg4 m ρ c]
  exact (mm_ref _ _).symm

end Cert.KernelIdeal.Fold

end
-- ==== Proof.Region3.lean ====
/-
  The second combining kernel: the first one's text on the second layer's arrays.

  Grid point t is handed rows 5000·t … 5000·t + 4999 of the aggregate, of the node's own transformed features and of
  the self-loop column, and the whole bias row; it writes back the same rows of max((a + h · d) + b, 0). Entry (n, q)
  of that depends on entry (n, q) of the first two arrays, entry n of the column and entry q of the row, so a point
  writes back its block of `comb` of the four whole arrays, and the twenty blocks tile the rows.
  Stated for any contents `V` of the buffers when the kernel is entered.
-/
import proofs.«121958_j55293408969104_1_alg».proof.Proof.Gen.KernelIdeal.Frame
import proofs.«121958_j55293408969104_1_alg».proof.Proof.Bodies
import proofs.«121958_j55293408969104_1_alg».proof.Proof.Spec
import proofs.«121958_j55293408969104_1_alg».proof.Proof.Region0

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- One point of a closing step over variables: if a block's rows are rows r0 … of `A`, `H` and the column `D`, and its
    bias row is `B`, the body's entry (p, q) is entry (r0 + p, q) of `comb A H D B`. -/
theorem comb3_point (A H : SNH.Idx → EReal) (D : SN1.Idx → EReal) (B : S1H.Idx → EReal)
    (a h : Vec Ideal S5000x128 .f32) (d : Vec Ideal S5000x1 .f32) (b : Vec Ideal S1x128 .f32) (r0 : ℕ)
    (ha : ∀ (p : Fin 5000) (q : Fin 128) (i : SNH.Idx), (i 0).val = r0 + p.val → (i 1).val = q.val → a (ix2 p q) = A i)
    (hh : ∀ (p : Fin 5000) (q : Fin 128) (i : SNH.Idx), (i 0).val = r0 + p.val → (i 1).val = q.val → h (ix2 p q) = H i)
    (hd : ∀ (p : Fin 5000) (i : SN1.Idx), (i 0).val = r0 + p.val → d (ix2 p (0 : Fin 1)) = D i)
    (hb : ∀ (q : Fin 128) (i : S1H.Idx), (i 1).val = q.val → b (ix2 (0 : Fin 1) q) = B i)
    (p : Fin 5000) (q : Fin 128) (i : SNH.Idx) (h0 : (i 0).val = r0 + p.val) (h1 : (i 1).val = q.val) :
    k3_pay1 (F := Ideal) a h d b (ix2 p q) = comb A H D B i := by
  rw [Body.combine3_apply]
  unfold comb
  rw [ha p q i h0 h1, hh p q i h0 h1, hd p (ix2 (i 0) (0 : Fin 1)) h0, hb q (ix2 (0 : Fin 1) (i 1)) h1]

/-- The index maps, decided over the twenty points: the row blocks move with the point, the bias row stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is its block of `comb` of the four arrays as the kernel finds them. -/
theorem flushed3 (c : Dev nD) (t : Fin cfg3.N) :
    (dat3 V c).flushed 4 t = ((cfg3.win 4).blk t).view.read (Elt Ideal)
      (comb (V c main_v57) (V c main_v44) (V c main_v12) (V c main_v58)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e40, e41⟩ := idx3 t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 3 t) (ix2 p q)
    = comb (V c main_v57) (V c main_v44) (V c main_v12) (V c main_v58) (((cfg3.win 4).blk t).view.emb (ix2 p q))
  refine comb3_point (V c main_v57) (V c main_v44) (V c main_v12) (V c main_v58)
    (iblk3 V c 0 t) (iblk3 V c 1 t) (iblk3 V c 2 t) (iblk3 V c 3 t) (t.val * 5000) ?_ ?_ ?_ ?_ p q
    (((cfg3.win 4).blk t).view.emb (ix2 p q)) ?_ ?_
  · intro p q i h0 h1
    show V c main_v57 (((cfg3.win 0).blk t).view.emb (ix2 p q)) = V c main_v57 i
    refine congrArg (V c main_v57) (funext fun a => Fin.ext ?_)
    match a with
    | ⟨0, _⟩ => show win3_0.index t (0 : Fin 2) * 5000 + 1 * p.val = (i 0).val; rw [e00, h0]; omega
    | ⟨1, _⟩ => show win3_0.index t (1 : Fin 2) * 128 + 1 * q.val = (i 1).val; rw [e01, h1]; omega
  · intro p q i h0 h1
    show V c main_v44 (((cfg3.win 1).blk t).view.emb (ix2 p q)) = V c main_v44 i
    refine congrArg (V c main_v44) (funext fun a => Fin.ext ?_)
    match a with
    | ⟨0, _⟩ => show win3_1.index t (0 : Fin 2) * 5000 + 1 * p.val = (i 0).val; rw [e10, h0]; omega
    | ⟨1, _⟩ => show win3_1.index t (1 : Fin 2) * 128 + 1 * q.val = (i 1).val; rw [e11, h1]; omega
  · intro p i h0
    have hi1 : (i 1).val < 1 := (i 1).isLt
    show V c main_v12 (((cfg3.win 2).blk t).view.emb (ix2 p (0 : Fin 1))) = V c main_v12 i
    refine congrArg (V c main_v12) (funext fun a => Fin.ext ?_)
    match a with
    | ⟨0, _⟩ => show win3_2.index t (0 : Fin 2) * 5000 + 1 * p.val = (i 0).val; rw [e20, h0]; omega
    | ⟨1, _⟩ => show win3_2.index t (1 : Fin 2) * 1 + 1 * 0 = (i 1).val; rw [e21]; omega
  · intro q i h1
    have hi0 : (i 0).val < 1 := (i 0).isLt
    show V c main_v58 (((cfg3.win 3).blk t).view.emb (ix2 (0 : Fin 1) q)) = V c main_v58 i
    refine congrArg (V c main_v58) (funext fun a => Fin.ext ?_)
    match a with
    | ⟨0, _⟩ => show win3_3.index t (0 : Fin 2) * 1 + 1 * 0 = (i 0).val; rw [e30]; omega
    | ⟨1, _⟩ => show win3_3.index t (1 : Fin 2) * 128 + 1 * q.val = (i 1).val; rw [e31, h1]; omega
  · show win3_4.index t (0 : Fin 2) * 5000 + 1 * p.val = t.val * 5000 + p.val; rw [e40]; omega
  · show win3_4.index t (1 : Fin 2) * 128 + 1 * q.val = q.val; rw [e41]; omega

/-- An index of the layer's output is in point t's block iff each coordinate is in the block's range. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Every row of the layer's output is in some point's block: row n in block n / 5000. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; rw [hN]; omega⟩
  obtain ⟨-, -, -, -, -, -, -, -, e40, e41⟩ := idx3 t
  have e40' : win3_4.index t (0 : Fin 2) = (i 0).val / 5000 := e40
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e40']; omega
  | ⟨1, _⟩ => show win3_4.index t (1 : Fin 2) * 128 ≤ (i 1).val ∧ (i 1).val < win3_4.index t (1 : Fin 2) * 128 + 128; rw [e41]; omega

/-- The layer's output array after the kernel: `comb` of the four arrays as the kernel found them. -/
theorem arr3 (c : Dev nD) :
    (dat3 V c).arrAt 4 cfg3.N = comb (V c main_v57) (V c main_v44) (V c main_v12) (V c main_v58) :=
  (dat3 V c).arrAt_eq_of_cover 4 (comb (V c main_v57) (V c main_v44) (V c main_v12) (V c main_v58))
    (fun t _ => flushed3 V c t) (cover3)

end Cert.KernelIdeal.Arr

end
-- ==== Proof.FoldC.lean ====
/-
  The fold through the program, third stretch: the second layer's aggregate and its combining kernel.

  The host gathers the second product's rows along the edges, scales them by the same normaliser and scatter-adds them:
  the reference's text again (the reference computes the degrees and the normaliser a second time, by the same
  operations on the same edge list). The second combining kernel leaves the second layer's output.
-/
import proofs.«121958_j55293408969104_1_alg».proof.Proof.FoldB
import proofs.«121958_j55293408969104_1_alg».proof.Proof.Region3

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Gcn
open Cert.ReferenceIdeal.Read Cert.ReferenceIdeal.Stages

variable (m : (ℓ : Loc nD τ sig) → Buf (Elt Ideal) ℓ) (ρ : Dev nD → PrngReg) (c : Dev nD)

/-- A buffer that no operation of a host stretch writes holds after the stretch what it held before. -/
local macro "keep_host" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem w6_v12 : W6 m ρ c (Proc.devRef .tc main_v12) = val_main_v41 (F := Ideal) (m ((c : Thread nD τ).loc main_arg1)) :=
  (show StableHlo.after hostOps3 (W5 m ρ c) (Proc.devRef .tc main_v12) = W5 m ρ c (Proc.devRef .tc main_v12) by keep_host).trans (w5_v12 m ρ c)
theorem w6_v44 : W6 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show StableHlo.after hostOps3 (W5 m ρ c) (Proc.devRef .tc main_v44) = W5 m ρ c (Proc.devRef .tc main_v44) by keep_host).trans (w5_v44 m ρ c)

/-- The second layer's aggregate. -/
theorem w6_v57 : W6 m ρ c (Proc.devRef .tc main_v57) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  rw [w5_v1 m ρ c, w5_v3 m ρ c, w5_v27 m ρ c, w5_v44 m ρ c]
  rfl

/-- The second bias as a row. -/
theorem w6_v58 : W6 m ρ c (Proc.devRef .tc main_v58) = val_main_v90 (F := Ideal) (m ((c : Thread nD τ).loc main_arg5)) := by
  show StableHlo.after hostOps3 (W5 m ρ c) (Proc.devRef .tc main_v58) = _
  after_results
  rw [w5_arg5 m ρ c]
  exact shapeCast_row_eq_broadcastInDim _ _ _

/-- The second layer's output. -/
theorem w7_v59 : W7 m ρ c (Proc.devRef .tc main_v59) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((Arr.arr3 (V6 m ρ) c).trans ?_)
  show comb (W6 m ρ c (Proc.devRef .tc main_v57)) (W6 m ρ c (Proc.devRef .tc main_v44)) (W6 m ρ c (Proc.devRef .tc main_v12))
    (W6 m ρ c (Proc.devRef .tc main_v58)) = _
  rw [w6_v57 m ρ c, w6_v44 m ρ c, w6_v12 m ρ c, w6_v58 m ρ c]
  exact (comb_ref _ _ _ _).symm

end Cert.KernelIdeal.Fold

end
-- ==== Proof.Region4.lean ====
/-
  The last kernel: the second layer's output times the classifier's weights, plus the bias row; ten blocks of 10000 rows.

  Grid point t is handed rows 10000·t … 10000·t + 9999 of the features, the whole [128, 40] weight matrix and the whole
  bias row, and writes back the same rows of the result: its block of `head` of the three whole arrays. The ten blocks
  tile the rows. Stated for any contents `V` of the buffers when the kernel is entered.
-/
import proofs.«121958_j55293408969104_1_alg».proof.Proof.Gen.KernelIdeal.Frame
import proofs.«121958_j55293408969104_1_alg».proof.Proof.Bodies
import proofs.«121958_j55293408969104_1_alg».proof.Proof.Spec
import proofs.«121958_j55293408969104_1_alg».proof.Proof.Region0

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- One point of the classifier over variables: if a block's rows are rows r0 … of `X`, its weights are `W` and its bias
    row is `B`, the body's entry (p, q) is entry (r0 + p, q) of `head X W B`. -/
theorem head_point (X : SNH.Idx → EReal) (W : SHO.Idx → EReal) (B : S1O.Idx → EReal)
    (x : Vec Ideal S10000x128 .f32) (w : Vec Ideal S128x40 .f32) (b : Vec Ideal S1x40 .f32) (r0 : ℕ)
    (hx : ∀ (p : Fin 10000) (k : Fin 128) (i : SNH.Idx), (i 0).val = r0 + p.val → (i 1).val = k.val → x (ix2 p k) = X i)
    (hw : ∀ (k : Fin 128) (q : Fin 40) (i : SHO.Idx), (i 0).val = k.val → (i 1).val = q.val → w (ix2 k q) = W i)
    (hb : ∀ (q : Fin 40) (i : S1O.Idx), (i 1).val = q.val → b (ix2 (0 : Fin 1) q) = B i)
    (p : Fin 10000) (q : Fin 40) (i : SNO.Idx) (h0 : (i 0).val = r0 + p.val) (h1 : (i 1).val = q.val) :
    k4_pay1 (F := Ideal) x w b (ix2 p q) = head X W B i := by
  rw [Body.dense4_apply]
  unfold head
  rw [hb q (ix2 (0 : Fin 1) (i 1)) h1]
  refine congrArg (· + B (ix2 (0 : Fin 1) (i 1))) ?_
  refine Finset.sum_congr rfl fun k _ => ?_
  rw [hx p k (ix2 (i 0) k) h0 rfl, hw k q (ix2 k (i 1)) rfl h1]

/-- The index maps, decided over the ten points: the rows' block index is the point, every other block index is 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is its block of `head` of the three arrays as the kernel finds them. -/
theorem flushed4 (c : Dev nD) (t : Fin cfg4.N) :
    (dat4 V c).flushed 3 t = ((cfg4.win 3).blk t).view.read (Elt Ideal)
      (head (V c main_v59) (V c main_arg6) (V c main_v60)) := by
  show (cfg4.win 3).cut (grid4.coords t) ((dat4 V c).after 3 t) = _
  rw [after4_3]
  unfold out4_3
  rw [View.canon_unit_zero hz]
  simp only [View.ld_unit_zero (S := S10000x128) hz, View.ld_unit_zero (S := S128x40) hz, View.ld_unit_zero (S := S1x40) hz]
  obtain ⟨e00, e01, e10, e11, e20, e21, e30, e31⟩ := idx4 t
  funext j
  obtain ⟨p, q, rfl⟩ : ∃ (p : Fin 10000) (q : Fin 40), j = ix2 p q := ⟨j 0, j 1, eq_ix2 j⟩
  show k4_pay1 (F := Ideal) (iblk4 V c 0 t) (iblk4 V c 1 t) (iblk4 V c 2 t) (ix2 p q)
    = head (V c main_v59) (V c main_arg6) (V c main_v60) (((cfg4.win 3).blk t).view.emb (ix2 p q))
  refine head_point (V c main_v59) (V c main_arg6) (V c main_v60)
    (iblk4 V c 0 t) (iblk4 V c 1 t) (iblk4 V c 2 t) (t.val * 10000) ?_ ?_ ?_ p q
    (((cfg4.win 3).blk t).view.emb (ix2 p q)) ?_ ?_
  · intro p k i h0 h1
    show V c main_v59 (((cfg4.win 0).blk t).view.emb (ix2 p k)) = V c main_v59 i
    refine congrArg (V c main_v59) (funext fun a => Fin.ext ?_)
    match a with
    | ⟨0, _⟩ => show win4_0.index t (0 : Fin 2) * 10000 + 1 * p.val = (i 0).val; rw [e00, h0]; omega
    | ⟨1, _⟩ => show win4_0.index t (1 : Fin 2) * 128 + 1 * k.val = (i 1).val; rw [e01, h1]; omega
  · intro k q i h0 h1
    show V c main_arg6 (((cfg4.win 1).blk t).view.emb (ix2 k q)) = V c main_arg6 i
    refine congrArg (V c main_arg6) (funext fun a => Fin.ext ?_)
    match a with
    | ⟨0, _⟩ => show win4_1.index t (0 : Fin 2) * 128 + 1 * k.val = (i 0).val; rw [e10, h0]; omega
    | ⟨1, _⟩ => show win4_1.index t (1 : Fin 2) * 40 + 1 * q.val = (i 1).val; rw [e11, h1]; omega
  · intro q i h1
    have hi0 : (i 0).val < 1 := (i 0).isLt
    show V c main_v60 (((cfg4.win 2).blk t).view.emb (ix2 (0 : Fin 1) q)) = V c main_v60 i
    refine congrArg (V c main_v60) (funext fun a => Fin.ext ?_)
    match a with
    | ⟨0, _⟩ => show win4_2.index t (0 : Fin 2) * 1 + 1 * 0 = (i 0).val; rw [e20]; omega
    | ⟨1, _⟩ => show win4_2.index t (1 : Fin 2) * 40 + 1 * q.val = (i 1).val; rw [e21, h1]; omega
  · show win4_3.index t (0 : Fin 2) * 10000 + 1 * p.val = t.val * 10000 + p.val; rw [e30]; omega
  · show win4_3.index t (1 : Fin 2) * 40 + 1 * q.val = q.val; rw [e31]; omega

/-- An index of the result is in point t's block iff each coordinate is in the block's range. -/
theorem mem_blk4 (t : Fin cfg4.N) (i : S100000x40.Idx) :
    i ∈ ((cfg4.win 3).blk t).view.set ↔ ∀ a : Fin 2, win4_3.index t a * S10000x40.size a ≤ (i a).val ∧ (i a).val < win4_3.index t a * S10000x40.size a + S10000x40.size a := by
  show i ∈ ((View.whole main_v61).slice (win4_3.rect t)).set ↔ _
  rw [View.set_slice_whole, Rect.mem_set_unit]
  exact Iff.rfl

/-- Every row of the result is in some point's block: row n in block n / 10000. -/
theorem cover4 (i : S100000x40.Idx) : ∃ t : Fin cfg4.N, (cfg4.win 3).flush t = true ∧ i ∈ ((cfg4.win 3).blk t).view.set := by
  have hi0 : (i 0).val < 100000 := (i 0).isLt
  have hi1 : (i 1).val < 40 := (i 1).isLt
  have hN : grid4.N = 10 := N_4
  let t : Fin cfg4.N := ⟨(i 0).val / 10000, by show (i 0).val / 10000 < grid4.N; rw [hN]; omega⟩
  obtain ⟨-, -, -, -, -, -, e30, e31⟩ := idx4 t
  have e30' : win4_3.index t (0 : Fin 2) = (i 0).val / 10000 := e30
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; rw [e30']; omega
  | ⟨1, _⟩ => show win4_3.index t (1 : Fin 2) * 40 ≤ (i 1).val ∧ (i 1).val < win4_3.index t (1 : Fin 2) * 40 + 40; rw [e31]; omega

/-- The result array after the last kernel: `head` of the three arrays as the kernel found them. -/
theorem arr4 (c : Dev nD) :
    (dat4 V c).arrAt 3 cfg4.N = head (V c main_v59) (V c main_arg6) (V c main_v60) :=
  (dat4 V c).arrAt_eq_of_cover 3 (head (V c main_v59) (V c main_arg6) (V c main_v60))
    (fun t _ => flushed4 V c t) (cover4)

end Cert.KernelIdeal.Arr

end
-- ==== Proof.FoldD.lean ====
/-
  The fold through the program, last stretch: the classifier.

  The host lays the last bias out as a row; the last kernel leaves `head` of the second layer's output, the classifier's
  weights and that row: the reference's result.
-/
import proofs.«121958_j55293408969104_1_alg».proof.Proof.FoldC
import proofs.«121958_j55293408969104_1_alg».proof.Proof.Region4

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Gcn
open Cert.ReferenceIdeal.Read Cert.ReferenceIdeal.Stages

variable (m : (ℓ : Loc nD τ sig) → Buf (Elt Ideal) ℓ) (ρ : Dev nD → PrngReg) (c : Dev nD)

/-- A buffer that no operation of a host stretch writes holds after the stretch what it held before. -/
local macro "keep_host" : tactic => `(tactic| (
  refine StableHlo.after_of_forall_not_mem _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem w8_v59 : W8 m ρ c (Proc.devRef .tc main_v59) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps4 (W7 m ρ c) (Proc.devRef .tc main_v59) = W7 m ρ c (Proc.devRef .tc main_v59) by keep_host).trans (w7_v59 m ρ c)

/-- The classifier's bias as a row. -/
theorem w8_v60 : W8 m ρ c (Proc.devRef .tc main_v60) = val_main_v95 (F := Ideal) (m ((c : Thread nD τ).loc main_arg7)) := by
  show StableHlo.after hostOps4 (W7 m ρ c) (Proc.devRef .tc main_v60) = _
  after_results
  rw [w7_arg7 m ρ c]
  exact shapeCast_row_eq_broadcastInDim _ _ _

/-- The result array at the last boundary is the reference's result stage of the eight arguments. -/
theorem w9_v61 : W9 m ρ c (Proc.devRef .tc main_v61) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((Arr.arr4 (V8 m ρ) c).trans ?_)
  show head (W8 m ρ c (Proc.devRef .tc main_v59)) (W8 m ρ c (Proc.devRef .tc main_arg6)) (W8 m ρ c (Proc.devRef .tc main_v60)) = _
  rw [w8_v59 m ρ c, w8_arg6 m ρ c, w8_v60 m ρ c]
  exact (head_ref _ _ _).symm

end Cert.KernelIdeal.Fold

end
-- ==== Proof.lean ====
/-
  A two-layer graph convolution with a linear classifier, as five grid kernels among host operations, against its
  jnp reference: the two programs compute the same array of extended reals.

  Both programs compute, from the edge list alone, the degrees, the per-edge normaliser and the self-loop weights; both
  gather the transformed features along the edges, scale and scatter-add them. These host operations are the same text
  in both and are never opened. The kernel program does three things in kernels that the reference does on the host:
  the products with the weight matrices (a block of rows at a time: a row of a product depends on that row of the
  features only), the layers' closing step max((agg + h · d) + b, 0) (a block of rows at a time, entry by entry), and
  the classifier's product plus bias. On the extended reals a rounding to bf16 on the way into a product is the
  identity and a product into a zero accumulator is the plain sum, so each kernel leaves, over its whole output array,
  the same function of its input arrays as the reference's operations (Spec.lean: `mm`, `comb`, `head`). No law of
  arithmetic beyond that is used, so the precondition (finite inputs) is never opened.

  The frames of the two kernel programs are the generated ones; the reference's frame is its generated run with the
  result dropped; the idealization rewrote nothing, so `preserves` is trivial.
-/
import proofs.«121958_j55293408969104_1_alg».proof.Defs
import proofs.«121958_j55293408969104_1_alg».proof.Proof.Gen.Kernel
import proofs.«121958_j55293408969104_1_alg».proof.Proof.Gen.Kernel.Frame
import proofs.«121958_j55293408969104_1_alg».proof.Proof.Gen.KernelIdeal
import proofs.«121958_j55293408969104_1_alg».proof.Proof.Gen.KernelIdeal.Frame
import proofs.«121958_j55293408969104_1_alg».proof.Proof.Gen.ReferenceIdeal
import proofs.«121958_j55293408969104_1_alg».proof.Proof.Gen.ReferenceIdeal.Run
import proofs.«121958_j55293408969104_1_alg».proof.Proof.Gen.ReferenceIdeal.Read
import proofs.«121958_j55293408969104_1_alg».proof.Proof.Gen.Pre_finite_inputs
import proofs.«121958_j55293408969104_1_alg».proof.Proof.KernelRun
import proofs.«121958_j55293408969104_1_alg».proof.Proof.FoldD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The kernel program's result array ends at the reference's result stage of the kernel program's own arguments (the
    fold through its nine segments), and the reference's at that stage of its arguments, which agree. -/
theorem algebraic : Cert.algebraic_KernelIdeal_ReferenceIdeal := by
  intro m ρ m' ρ' _ hagree
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.w9_v61 m ρ c), (h c).2⟩) (Cert.KernelIdeal.Out.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
